-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x2048x2048 : Shape := ⟨3, ![2, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x2048x2048 : Shape := ⟨3, ![2, 2048, 2048]⟩
abbrev S2x16x2048x2048 : Shape := ⟨4, ![2, 16, 2048, 2048]⟩
abbrev S1x4x128x64 : Shape := ⟨4, ![1, 4, 128, 64]⟩
abbrev S1x4x2048x64 : Shape := ⟨4, ![1, 4, 2048, 64]⟩
abbrev S1x128x2048 : Shape := ⟨3, ![1, 128, 2048]⟩
abbrev S1x4x128x2048 : Shape := ⟨4, ![1, 4, 128, 2048]⟩
abbrev S4x128x64 : Shape := ⟨3, ![4, 128, 64]⟩
abbrev S4x2048x64 : Shape := ⟨3, ![4, 2048, 64]⟩
abbrev S128x2048 : Shape := ⟨2, ![128, 2048]⟩
abbrev S4x128x2048 : Shape := ⟨3, ![4, 128, 2048]⟩
abbrev S4x128 : Shape := ⟨2, ![4, 128]⟩
abbrev S4x128x1 : Shape := ⟨3, ![4, 128, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .i32⟩
  | .hbm, ⟨4, _⟩ => ⟨S2x16x2048x64, .f32⟩
  | .hbm, ⟨5, _⟩ => ⟨S2x16x2048x2048, .f32⟩
  | .local _ .vmem, ⟨0, _⟩ => ⟨S1x4x128x64, .f32⟩
  | .local _ .vmem, ⟨1, _⟩ => ⟨S1x4x128x64, .f32⟩
  | .local _ .vmem, ⟨2, _⟩ => ⟨S1x4x2048x64, .f32⟩
  | .local _ .vmem, ⟨3, _⟩ => ⟨S1x4x2048x64, .f32⟩
  | .local _ .vmem, ⟨4, _⟩ => ⟨S1x4x2048x64, .f32⟩
  | .local _ .vmem, ⟨5, _⟩ => ⟨S1x4x2048x64, .f32⟩
  | .local _ .vmem, ⟨6, _⟩ => ⟨S1x128x2048, .i32⟩
  | .local _ .vmem, ⟨7, _⟩ => ⟨S1x128x2048, .i32⟩
  | .local _ .vmem, ⟨8, _⟩ => ⟨S1x4x128x64, .f32⟩
  | .local _ .vmem, ⟨9, _⟩ => ⟨S1x4x128x64, .f32⟩
  | .local _ .vmem, ⟨10, _⟩ => ⟨S1x4x128x2048, .f32⟩
  | .local _ .vmem, ⟨11, _⟩ => ⟨S1x4x128x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x4x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x4x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x4x128x64_S1x4x128x64_0_0_0_0 : ∀ a, (![0, 0, 0, 0] : Fin 4 → Nat) a + S1x4x128x64.size a ≤ S1x4x128x64.size a
  h_S1x4x128x64 : 0 < S1x4x128x64.numel
  shapeCasts_S1x4x128x64_S4x128x64 : S1x4x128x64.ShapeCasts S4x128x64
  inb_S1x4x2048x64_S1x4x2048x64_0_0_0_0 : ∀ a, (![0, 0, 0, 0] : Fin 4 → Nat) a + S1x4x2048x64.size a ≤ S1x4x2048x64.size a
  h_S1x4x2048x64 : 0 < S1x4x2048x64.numel
  shapeCasts_S1x4x2048x64_S4x2048x64 : S1x4x2048x64.ShapeCasts S4x2048x64
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  bitsLt_bf16_f32 : FTy.bits .bf16 < FTy.bits .f32
  shapeCasts_S128x2048_S1x128x2048 : S128x2048.ShapeCasts S1x128x2048
  broadcasts_S1x128x2048_S4x128x2048 : S1x128x2048.Broadcasts S4x128x2048
  reduces_S4x128x2048_S4x128 : S4x128x2048.Reduces [2] S4x128
  shapeCasts_S4x128_S4x128x1 : S4x128.ShapeCasts S4x128x1
  broadcasts_S4x128x1_S4x128x2048 : S4x128x1.Broadcasts S4x128x2048
  inb_S1x4x128x2048_S1x4x128x2048_0_0_0_0 : ∀ a, (![0, 0, 0, 0] : Fin 4 → Nat) a + S1x4x128x2048.size a ≤ S1x4x128x2048.size a
  h_S1x4x128x2048 : 0 < S1x4x128x2048.numel
  shapeCasts_S1x4x128x2048_S4x128x2048 : S1x4x128x2048.ShapeCasts S4x128x2048
  shapeCasts_S4x128x2048_S1x4x128x2048 : S4x128x2048.ShapeCasts S1x4x128x2048
  shapeCasts_S4x128x64_S1x4x128x64 : S4x128x64.ShapeCasts S1x4x128x64
  dot_S4x128x64_S4x2048x64_S4x128x2048_2_2_1_1_0_0_wf : DotDims.WF S4x128x64 S4x2048x64 S4x128x2048 [2] [2] [1] [1] [0] [0]
  dot_S4x128x2048_S4x2048x64_S4x128x64_2_1_1_2_0_0_wf : DotDims.WF S4x128x2048 S4x2048x64 S4x128x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x128x64.size a ≤ S2x16x2048x64.size a
  hwx0_0 : ∀ i : grid0.Coords, EltTy.bits .f32 = 32 ∨ (Rect.block (s := S2x16x2048x64) S1x4x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x2048x64.size a ≤ S2x16x2048x64.size a
  hwx0_1 : ∀ i : grid0.Coords, EltTy.bits .f32 = 32 ∨ (Rect.block (s := S2x16x2048x64) S1x4x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x2048x64.size a ≤ S2x16x2048x64.size a
  hwx0_2 : ∀ i : grid0.Coords, EltTy.bits .f32 = 32 ∨ (Rect.block (s := S2x16x2048x64) S1x4x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2048.size a ≤ S2x2048x2048.size a
  hwx0_3 : ∀ i : grid0.Coords, EltTy.bits .i32 = 32 ∨ (Rect.block (s := S2x2048x2048) S1x128x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x128x64.size a ≤ S2x16x2048x64.size a
  hwx0_4 : ∀ i : grid0.Coords, EltTy.bits .f32 = 32 ∨ (Rect.block (s := S2x16x2048x64) S1x4x128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x128x2048.size a ≤ S2x16x2048x2048.size a
  hwx0_5 : ∀ i : grid0.Coords, EltTy.bits .f32 = 32 ∨ (Rect.block (s := S2x16x2048x2048) S1x4x128x2048.size (cc0_transform_5 i) (hinb0_5 i)).WholeWords (EltTy.packing .f32)

variable [Facts₀]

def dot_S4x128x64_S4x2048x64_S4x128x2048_2_2_1_1_0_0 : DotDims S4x128x64 S4x2048x64 S4x128x2048 where
  lhsContracting := [2]
  rhsContracting := [2]
  lhsNonContracting := [1]
  rhsNonContracting := [1]
  lhsBatch := [0]
  rhsBatch := [0]
  wf := dot_S4x128x64_S4x2048x64_S4x128x2048_2_2_1_1_0_0_wf
def dot_S4x128x2048_S4x2048x64_S4x128x64_2_1_1_2_0_0 : DotDims S4x128x2048 S4x2048x64 S4x128x64 where
  lhsContracting := [2]
  rhsContracting := [1]
  lhsNonContracting := [1]
  rhsNonContracting := [2]
  lhsBatch := [0]
  rhsBatch := [0]
  wf := dot_S4x128x2048_S4x2048x64_S4x128x64_2_1_1_2_0_0_wf

abbrev win0_0 : Pipeline.Window sig grid0 :=
  Pipeline.Window.ofSpec (Memref.whole main_arg0) S1x4x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x4x128x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x4x128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x2048x2048 : Shape := ⟨3, ![2, 2048, 2048]⟩
abbrev S_ : Shape := ⟨0, ![]⟩
abbrev S2x16x2048x2048 : Shape := ⟨4, ![2, 16, 2048, 2048]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x16x2048x2048, .f32⟩
  | .hbm, ⟨9, _⟩ => ⟨S2x16x2048x2048, .f32⟩
  | .hbm, ⟨10, _⟩ => ⟨S2x16x2048x2048, .f32⟩
  | .hbm, ⟨11, _⟩ => ⟨S2x2048x2048, .f32⟩
  | .hbm, ⟨12, _⟩ => ⟨S_, .i32⟩
  | .hbm, ⟨13, _⟩ => ⟨S_, .i32⟩
  | .hbm, ⟨14, _⟩ => ⟨S_, .f32⟩
  | .hbm, ⟨15, _⟩ => ⟨S2x2048x2048, .f32⟩
  | .hbm, ⟨16, _⟩ => ⟨S2x2048x2048, .f32⟩
  | .hbm, ⟨17, _⟩ => ⟨S_, .f32⟩
  | .hbm, ⟨18, _⟩ => ⟨S2x2048x2048, .f32⟩
  | .hbm, ⟨19, _⟩ => ⟨S2x2048x2048, .f32⟩
  | .hbm, ⟨20, _⟩ => ⟨S_, .f32⟩
  | .hbm, ⟨21, _⟩ => ⟨S2x2048x2048, .f32⟩
  | .hbm, ⟨22, _⟩ => ⟨S2x2048x2048, .f32⟩
  | .hbm, ⟨23, _⟩ => ⟨S_, .f32⟩
  | .hbm, ⟨24, _⟩ => ⟨S2x2048x2048, .f32⟩
  | .hbm, ⟨25, _⟩ => ⟨S2x2048x2048, .f32⟩
  | .hbm, ⟨26, _⟩ => ⟨S2x1x2048x2048, .f32⟩
  | .hbm, ⟨27, _⟩ => ⟨S2x16x2048x2048, .f32⟩
  | .hbm, ⟨28, _⟩ => ⟨S2x16x2048x2048, .f32⟩
  | .hbm, ⟨29, _⟩ => ⟨S_, .f32⟩
  | .hbm, ⟨30, _⟩ => ⟨S2x16x2048, .f32⟩
  | .hbm, ⟨31, _⟩ => ⟨S_, .f32⟩
  | .hbm, ⟨32, _⟩ => ⟨S2x16x2048, .f32⟩
  | .hbm, ⟨33, _⟩ => ⟨S2x16x2048, .f32⟩
  | .hbm, ⟨34, _⟩ => ⟨S2x16x2048x1, .f32⟩
  | .hbm, ⟨35, _⟩ => ⟨S2x16x2048x2048, .f32⟩
  | .hbm, ⟨36, _⟩ => ⟨S2x16x2048x2048, .f32⟩
  | .hbm, ⟨37, _⟩ => ⟨S2x16x2048x2048, .f32⟩
  | .hbm, ⟨38, _⟩ => ⟨S_, .f32⟩
  | .hbm, ⟨39, _⟩ => ⟨S2x16x2048, .f32⟩
  | .hbm, ⟨40, _⟩ => ⟨S2x16x2048x1, .f32⟩
  | .hbm, ⟨41, _⟩ => ⟨S2x16x2048x2048, .f32⟩
  | .hbm, ⟨42, _⟩ => ⟨S2x16x2048x2048, .f32⟩
  | .hbm, ⟨43, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S_S2x2048x2048 : S_.BroadcastsInDim S2x2048x2048 (![] : Fin 0 → Fin S2x2048x2048.rank)
  bcast_S2x2048x2048_S2x1x2048x2048_0_2_3 : S2x2048x2048.BroadcastsInDim S2x1x2048x2048 (![0, 2, 3] : Fin 3 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibSoftmaxRow.lean ====
/- One row of masked scaled-dot-product attention on the extended reals, for any sequence length S and head width D.
   A query row q and the key rows give the scores s k = (∑ d, q d · key k d) · (1/8) + bias k, the bias being 0 where the
   mask word is positive and the large negative constant elsewhere; the row's weights are the softmax of the scores,
   exp (s k − M) / ∑ k', exp (s k' − M) with M the greatest score (the maximum taken from −∞, and once more against −∞);
   the output row is the weights' combination of the value rows, ∑ k, w k · value k d.
   Two spellings of the constants meet here. The scale: 1 / √64 is 1/8, the value of the word 0x3E000000, because 64 = 8².
   The bias: for an integer m, −10⁹ · (1 − min 1 (max 0 m)) is 0 when m ≥ 1 (the clamp gives 1) and −10⁹ when m ≤ 0 (the
   clamp gives 0), which is the choice "m > 0 ? 0 : −10⁹". Neither law needs any finiteness. -/
import Idealize.ShloMosaic.PureOps.Ideal
import Idealize.ShloMosaic.PureOps.Ideal.Laws

noncomputable section

open scoped BigOperators

open Idealize.ShloMosaic

namespace Cert.Lib.SoftmaxRow

/-! ## The constants -/

/-- The word of 1.0 denotes 1. -/
theorem ofBits_one : Ideal.ofBits .f32 0x3F800000#32 = 1 := by
  simp [Ideal.ofBits, Ideal.ieee, -EReal.coe_mul]; norm_num

/-- The word of 64.0 denotes 64. -/
theorem ofBits_64 : Ideal.ofBits .f32 0x42800000#32 = ((64 : ℝ) : EReal) := by
  simp [Ideal.ofBits, Ideal.ieee, -EReal.coe_mul]; norm_num

/-- The word of 0.125 denotes 1/8. -/
theorem ofBits_eighth : Ideal.ofBits .f32 0x3E000000#32 = ((1 / 8 : ℝ) : EReal) := by
  simp [Ideal.ofBits, Ideal.ieee, -EReal.coe_mul]; norm_num

/-- The scale both programs multiply the scores by: 1 / √64 = 1/8, since 64 = 8². -/
theorem one_div_sqrt_64 :
    Ideal.div (Ideal.ofBits .f32 0x3F800000#32) (Ideal.sqrt (Ideal.ofBits .f32 0x42800000#32)) = Ideal.ofBits .f32 0x3E000000#32 := by
  have h8 : Real.sqrt 64 = 8 := by
    rw [show (64 : ℝ) = 8 ^ 2 by norm_num]
    exact Real.sqrt_sq (by norm_num)
  rw [ofBits_64, Ideal.sqrt_coe, if_neg (by norm_num), h8, Ideal.div_coe (by norm_num : (8 : ℝ) ≠ 0), ofBits_one, one_mul,
    ofBits_eighth]

/-! ## The mask's bias -/

/-- The additive bias of one mask word: nothing where the word is positive, the large negative constant elsewhere. -/
def maskBias (m : BitVec 32) : EReal :=
  Scalar.select (IntOp.cmpi .sgt m 0#32) (Ideal.ofBits .f32 0x00000000#32) (Ideal.ofBits .f32 0xCE6E6B28#32)

/-- The same bias as arithmetic on the mask word read as an integer m: the constant times 1 − min 1 (max 0 m). For m ≥ 1
    the clamp is 1 and the product is 0; for m ≤ 0 the clamp is 0 and the product is the constant. -/
theorem maskBias_clamped (m : BitVec 32) :
    Ideal.ofBits .f32 0xCE6E6B28#32 * (Ideal.ofBits .f32 0x3F800000#32
      - min (FloatOps.sitofp (F := Ideal) .f32 (1#32 : BitVec 32)) (max (FloatOps.sitofp (F := Ideal) .f32 (0#32 : BitVec 32)) (FloatOps.sitofp (F := Ideal) .f32 m)))
      = maskBias m := by
  show _ * (_ - min ((((1#32 : BitVec 32).toInt : ℝ)) : EReal) (max ((((0#32 : BitVec 32).toInt : ℝ)) : EReal) ((m.toInt : ℝ) : EReal))) = _
  have h1 : (1#32 : BitVec 32).toInt = 1 := by decide
  have h0 : (0#32 : BitVec 32).toInt = 0 := by decide
  rw [h1, h0, ofBits_one]
  unfold maskBias Scalar.select IntOp.cmpi
  by_cases hm : 0 < m.toInt
  · have hs : (0#32 : BitVec 32).slt m = true := by
      rw [BitVec.slt, h0]; exact decide_eq_true hm
    have hle : ((1 : ℤ) : ℝ) ≤ ((m.toInt : ℤ) : ℝ) := by exact_mod_cast hm
    have hmax : max (((0 : ℤ) : ℝ) : EReal) ((m.toInt : ℝ) : EReal) = ((m.toInt : ℝ) : EReal) :=
      max_eq_right (EReal.coe_le_coe_iff.mpr (by exact_mod_cast hm.le))
    have hmin : min (((1 : ℤ) : ℝ) : EReal) ((m.toInt : ℝ) : EReal) = (((1 : ℤ) : ℝ) : EReal) :=
      min_eq_left (EReal.coe_le_coe_iff.mpr hle)
    have hsub : (1 : EReal) - ((((1 : ℤ) : ℝ)) : EReal) = 0 := by
      rw [Int.cast_one, ← EReal.coe_one, ← EReal.coe_sub, sub_self, EReal.coe_zero]
    rw [hmax, hmin, hs, hsub, mul_zero]
    simp
  · have hs : (0#32 : BitVec 32).slt m = false := by
      rw [BitVec.slt, h0]; exact decide_eq_false hm
    have hmax : max (((0 : ℤ) : ℝ) : EReal) ((m.toInt : ℝ) : EReal) = (((0 : ℤ) : ℝ) : EReal) :=
      max_eq_left (EReal.coe_le_coe_iff.mpr (by exact_mod_cast (not_lt.mp hm)))
    have hmin : min (((1 : ℤ) : ℝ) : EReal) (((0 : ℤ) : ℝ) : EReal) = (((0 : ℤ) : ℝ) : EReal) :=
      min_eq_right (EReal.coe_le_coe_iff.mpr (by norm_num))
    rw [hmax, hmin, hs]
    simp

/-! ## The row functions -/

variable {S D : ℕ}

/-- The scores of one query row against every key row: the scaled dot product plus the mask's bias. -/
def scoreRow (q : Fin D → EReal) (ks : Fin S → Fin D → EReal) (ms : Fin S → BitVec 32) (k : Fin S) : EReal :=
  (∑ d : Fin D, q d * ks k d) * Ideal.ofBits .f32 0x3E000000#32 + maskBias (ms k)

/-- The greatest score of a row, the maximum starting from −∞ and compared with −∞ once more. -/
def rowMax (s : Fin S → EReal) : EReal :=
  max (Ideal.ofBits .f32 0xFF800000#32) ((Finset.univ : Finset (Fin S)).fold max (Ideal.ofBits .f32 0xFF800000#32) s)

/-- The softmax of a row of scores. -/
def softmaxRow (s : Fin S → EReal) (k : Fin S) : EReal :=
  Ideal.div (Ideal.exp (s k - rowMax s)) (∑ k' : Fin S, Ideal.exp (s k' - rowMax s))

/-- A row of weights applied to the value rows. -/
def weightedSum (w : Fin S → EReal) (vs : Fin S → Fin D → EReal) (d : Fin D) : EReal :=
  ∑ k : Fin S, w k * vs k d

end Cert.Lib.SoftmaxRow

end
-- ==== Proof.LibBatchedReads.lean ====
/- Reads at coordinates for arrays with a leading batch axis, for any extents. Layouts, for any element type: a
   `[1, b, c]` array broadcast over a new leading extent to `[a, b, c]` reads at (i, j, k) the operand at (0, j, k); a
   `[a, b]` array cast to `[a, b, 1]` reads at (i, j, 0) the operand at (i, j); an `[a, b, 1]` array broadcast along its
   last axis to `[a, b, c]` reads at (i, j, k) the operand at (i, j, 0). Reductions along the last axis, on the extended
   reals: the maximum of an `[a, b, c]` array along axis 2 is, at (i, j), the fold of max from the accumulator's value
   over k of the array at (i, j, k), and its sum along axis 2 is the sum over k; the host's maximum of an `[a, b, c, e]`
   array along axis 3 is, at (i, j, k), the fold of max from the initial value over l of the array at (i, j, k, l).
   Nothing here depends on a particular program. -/
import Idealize.ShloMosaic.PureOps.Ideal
import Idealize.ShloMosaic.PureOps.Ideal.Laws
import Idealize.ShloMosaic.Lib.Pipeline.Value
import Idealize.ShloMosaic.Lib.ValueIdx

noncomputable section

open scoped BigOperators

open Idealize.ShloMosaic Idealize.ShloMosaic.ValueIdx

namespace Cert.Lib.BatchedReads

variable {α : Type}

/-! ## Layouts -/

/-- A `[1, b, c]` array broadcast to `[a, b, c]` reads, at (i, j, k), the operand at (0, j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast along its last axis to `[a, b, c]` reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b]` array cast to `[a, b, 1]` reads, at (i, j, z), the operand at (i, j): both sit at row-major position
    i · b + j. -/
theorem shapeCast_ab_ab1_apply {a b : ℕ} (v : (⟨2, ![a, b]⟩ : Shape).Idx → α)
    (h : (⟨2, ![a, b]⟩ : Shape).ShapeCasts ⟨3, ![a, b, 1]⟩) (i : Fin a) (j : Fin b) (z : Fin 1) :
    shapeCast ⟨3, ![a, b, 1]⟩ v h (ix3 i j z) = v (ix2 i j) := by
  refine shapeCast_apply v h (ix3 i j z) (ix2 i j) ?_
  rw [Shape.rowMajor_val_two, Shape.rowMajor_val_three]
  show i.val * b + j.val = (i.val * b + j.val) * 1 + z.val
  have := z.isLt; omega

/-! ## Reductions along the last axis -/

/-- The maximum of an `[a, b, c]` array along its last axis, read at (i, j): the fold of max, from the accumulator's
    value, over k of the array at (i, j, k). -/
theorem lastAxisMax_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) :=
  (Ideal.multiReduction_maximumf_single src acc h hφ hacc (ix2 i j)).trans
    (congrArg (fun f => (Finset.univ : Finset (Fin c)).fold max (Ideal.ofBits .f32 acc) f)
      (funext fun k => congrArg src (funext fun ax => Fin.ext (by
        match ax with
        | ⟨0, _⟩ => rfl
        | ⟨1, _⟩ => rfl
        | ⟨2, _⟩ => rfl))))

/-- The sum of an `[a, b, c]` array along its last axis from the neutral accumulator, read at (i, j): the sum over k of the
    array at (i, j, k). -/
theorem lastAxisSum_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with
      | ⟨0, _⟩ => rfl
      | ⟨1, _⟩ => rfl
      | ⟨2, _⟩ => rfl)))

/-- The host's maximum of an `[a, b, c, e]` array along its last axis, read at (i, j, k): the fold of max, from the
    initial value, over l of the array at (i, j, k, l). -/
theorem hostLastAxisMax_apply {a b c e : ℕ} {u : Shape} (x : (⟨4, ![a, b, c, e]⟩ : Shape).Idx → EReal) (init : u.Idx → EReal)
    (h' : (⟨4, ![a, b, c, e]⟩ : Shape).ReducesTo [3] ⟨3, ![a, b, c]⟩) (h : (⟨4, ![a, b, c, e]⟩ : Shape).Reduces [3] ⟨3, ![a, b, c]⟩)
    (hu : 0 < u.numel) (i : Fin a) (j : Fin b) (k : Fin c) :
    Host.reduce (FloatOps.maximumf (F := Ideal) (φ := .f32)) x init h' hu (ix3 i j k)
      = (Finset.univ : Finset (Fin e)).fold max (init (Shape.Idx.first hu)) (fun l => x (ix4 i j k l)) :=
  (Host.reduce_eq_fold_single (FloatOps.maximumf (F := Ideal) (φ := .f32)) x init h' h hu (ix3 i j k)).trans
    (congrArg (fun f => (Finset.univ : Finset (Fin e)).fold max (init (Shape.Idx.first hu)) f)
      (funext fun l => congrArg x (funext fun ax => Fin.ext (by
        match ax with
        | ⟨0, _⟩ => rfl
        | ⟨1, _⟩ => rfl
        | ⟨2, _⟩ => rfl
        | ⟨3, _⟩ => rfl))))

end Cert.Lib.BatchedReads

end
-- ==== Proof.KernelReads.lean ====
/- What the kernel's body computes from its loaded blocks, read at coordinates on the extended reals.
   The body holds four heads at once. From the query block (1, 4, 128, 64), the key block (1, 4, 2048, 64) and the mask
   block (1, 128, 2048) it forms, for head h, query row q and key k, the score (∑ d, Q(0,h,q,d) · K(0,h,k,d)) · (1/8) plus
   the bias of mask word (0, q, k) — the batched product contracts the last axis of both operands, and the bias does not
   depend on the head —, then the row-wise softmax of the scores (the weights it stores), and from the weights and the
   value block (1, 4, 2048, 64) the output ∑ k, w(h,q,k) · V(0,h,k,d): the second batched product contracts the weights'
   last axis against the values' middle axis. The changes of float format in front of each product are the identity on
   the extended reals. Each result is one of the row functions of the softmax-row module applied to rows of the blocks. -/
import proofs.«175627_j75505525063894_1_alg».proof.Proof.Gen.KernelIdeal.Skeleton
import proofs.«175627_j75505525063894_1_alg».proof.Proof.LibSoftmaxRow
import proofs.«175627_j75505525063894_1_alg».proof.Proof.LibBatchedReads
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Reads

open Cert.KernelIdeal Cert.KernelIdeal.Gen Idealize.ShloMosaic Idealize.ShloMosaic.ValueIdx
open Cert.Lib.SoftmaxRow Cert.Lib.BatchedReads

/-! ## The two batched products at coordinates -/

/-- The operand coordinates of the first product at an output index and a contraction index: the batch and row
    coordinates come from the output index, the last from the contraction index. -/
theorem lhs_qk_0 (j : S4x128x2048.Idx) (c : dot_S4x128x64_S4x2048x64_S4x128x2048_2_2_1_1_0_0.contr.Idx) :
    (dot_S4x128x64_S4x2048x64_S4x128x2048_2_2_1_1_0_0.lhsIdx j c 0).val = (j 0).val := by
  unfold DotDims.lhsIdx
  rw [dif_pos (show (0 : Fin S4x128x64.rank) ∈ dot_S4x128x64_S4x2048x64_S4x128x2048_2_2_1_1_0_0.lhsBatch by decide)]
  rfl
theorem lhs_qk_1 (j : S4x128x2048.Idx) (c : dot_S4x128x64_S4x2048x64_S4x128x2048_2_2_1_1_0_0.contr.Idx) :
    (dot_S4x128x64_S4x2048x64_S4x128x2048_2_2_1_1_0_0.lhsIdx j c 1).val = (j 1).val := by
  unfold DotDims.lhsIdx
  rw [dif_neg (show ¬(1 : Fin S4x128x64.rank) ∈ dot_S4x128x64_S4x2048x64_S4x128x2048_2_2_1_1_0_0.lhsBatch by decide), dif_pos (show (1 : Fin S4x128x64.rank) ∈ dot_S4x128x64_S4x2048x64_S4x128x2048_2_2_1_1_0_0.lhsNonContracting by decide)]
  rfl
theorem lhs_qk_2 (j : S4x128x2048.Idx) (c : dot_S4x128x64_S4x2048x64_S4x128x2048_2_2_1_1_0_0.contr.Idx) :
    (dot_S4x128x64_S4x2048x64_S4x128x2048_2_2_1_1_0_0.lhsIdx j c 2).val = (c ⟨0, by decide⟩).val :=
  dot_S4x128x64_S4x2048x64_S4x128x2048_2_2_1_1_0_0.lhsIdx_val_of_single rfl j c
theorem rhs_qk_0 (j : S4x128x2048.Idx) (c : dot_S4x128x64_S4x2048x64_S4x128x2048_2_2_1_1_0_0.contr.Idx) :
    (dot_S4x128x64_S4x2048x64_S4x128x2048_2_2_1_1_0_0.rhsIdx j c 0).val = (j 0).val := by
  unfold DotDims.rhsIdx
  rw [dif_pos (show (0 : Fin S4x2048x64.rank) ∈ dot_S4x128x64_S4x2048x64_S4x128x2048_2_2_1_1_0_0.rhsBatch by decide)]
  rfl
theorem rhs_qk_1 (j : S4x128x2048.Idx) (c : dot_S4x128x64_S4x2048x64_S4x128x2048_2_2_1_1_0_0.contr.Idx) :
    (dot_S4x128x64_S4x2048x64_S4x128x2048_2_2_1_1_0_0.rhsIdx j c 1).val = (j 2).val := by
  unfold DotDims.rhsIdx
  rw [dif_neg (show ¬(1 : Fin S4x2048x64.rank) ∈ dot_S4x128x64_S4x2048x64_S4x128x2048_2_2_1_1_0_0.rhsBatch by decide), dif_pos (show (1 : Fin S4x2048x64.rank) ∈ dot_S4x128x64_S4x2048x64_S4x128x2048_2_2_1_1_0_0.rhsNonContracting by decide)]
  rfl
theorem rhs_qk_2 (j : S4x128x2048.Idx) (c : dot_S4x128x64_S4x2048x64_S4x128x2048_2_2_1_1_0_0.contr.Idx) :
    (dot_S4x128x64_S4x2048x64_S4x128x2048_2_2_1_1_0_0.rhsIdx j c 2).val = (c ⟨0, by decide⟩).val :=
  dot_S4x128x64_S4x2048x64_S4x128x2048_2_2_1_1_0_0.rhsIdx_val_of_single rfl j c

/-- The same for the second product: the values' middle axis is the contracted one. -/
theorem lhs_wv_0 (j : S4x128x64.Idx) (c : dot_S4x128x2048_S4x2048x64_S4x128x64_2_1_1_2_0_0.contr.Idx) :
    (dot_S4x128x2048_S4x2048x64_S4x128x64_2_1_1_2_0_0.lhsIdx j c 0).val = (j 0).val := by
  unfold DotDims.lhsIdx
  rw [dif_pos (show (0 : Fin S4x128x2048.rank) ∈ dot_S4x128x2048_S4x2048x64_S4x128x64_2_1_1_2_0_0.lhsBatch by decide)]
  rfl
theorem lhs_wv_1 (j : S4x128x64.Idx) (c : dot_S4x128x2048_S4x2048x64_S4x128x64_2_1_1_2_0_0.contr.Idx) :
    (dot_S4x128x2048_S4x2048x64_S4x128x64_2_1_1_2_0_0.lhsIdx j c 1).val = (j 1).val := by
  unfold DotDims.lhsIdx
  rw [dif_neg (show ¬(1 : Fin S4x128x2048.rank) ∈ dot_S4x128x2048_S4x2048x64_S4x128x64_2_1_1_2_0_0.lhsBatch by decide), dif_pos (show (1 : Fin S4x128x2048.rank) ∈ dot_S4x128x2048_S4x2048x64_S4x128x64_2_1_1_2_0_0.lhsNonContracting by decide)]
  rfl
theorem lhs_wv_2 (j : S4x128x64.Idx) (c : dot_S4x128x2048_S4x2048x64_S4x128x64_2_1_1_2_0_0.contr.Idx) :
    (dot_S4x128x2048_S4x2048x64_S4x128x64_2_1_1_2_0_0.lhsIdx j c 2).val = (c ⟨0, by decide⟩).val :=
  dot_S4x128x2048_S4x2048x64_S4x128x64_2_1_1_2_0_0.lhsIdx_val_of_single rfl j c
theorem rhs_wv_0 (j : S4x128x64.Idx) (c : dot_S4x128x2048_S4x2048x64_S4x128x64_2_1_1_2_0_0.contr.Idx) :
    (dot_S4x128x2048_S4x2048x64_S4x128x64_2_1_1_2_0_0.rhsIdx j c 0).val = (j 0).val := by
  unfold DotDims.rhsIdx
  rw [dif_pos (show (0 : Fin S4x2048x64.rank) ∈ dot_S4x128x2048_S4x2048x64_S4x128x64_2_1_1_2_0_0.rhsBatch by decide)]
  rfl
theorem rhs_wv_1 (j : S4x128x64.Idx) (c : dot_S4x128x2048_S4x2048x64_S4x128x64_2_1_1_2_0_0.contr.Idx) :
    (dot_S4x128x2048_S4x2048x64_S4x128x64_2_1_1_2_0_0.rhsIdx j c 1).val = (c ⟨0, by decide⟩).val :=
  dot_S4x128x2048_S4x2048x64_S4x128x64_2_1_1_2_0_0.rhsIdx_val_of_single rfl j c
theorem rhs_wv_2 (j : S4x128x64.Idx) (c : dot_S4x128x2048_S4x2048x64_S4x128x64_2_1_1_2_0_0.contr.Idx) :
    (dot_S4x128x2048_S4x2048x64_S4x128x64_2_1_1_2_0_0.rhsIdx j c 2).val = (j 2).val := by
  unfold DotDims.rhsIdx
  rw [dif_neg (show ¬(2 : Fin S4x2048x64.rank) ∈ dot_S4x128x2048_S4x2048x64_S4x128x64_2_1_1_2_0_0.rhsBatch by decide), dif_pos (show (2 : Fin S4x2048x64.rank) ∈ dot_S4x128x2048_S4x2048x64_S4x128x64_2_1_1_2_0_0.rhsNonContracting by decide)]
  rfl

/-- The first product, queries against keys into the zero accumulator, at (h, q, k): the sum over the head width of the
    query row (h, q) against the key row (h, k). -/
theorem qk_apply {φ₁ φ₂ : FTy} (l : FVec Ideal S4x128x64 φ₁) (r : FVec Ideal S4x2048x64 φ₂) (h : Fin 4) (q : Fin 128) (k : Fin 2048) :
    matmul dot_S4x128x64_S4x2048x64_S4x128x2048_2_2_1_1_0_0 none l r (constant (F := Ideal) S4x128x2048 .f32 0x00000000#32) (ix3 h q k)
      = ∑ d : Fin 64, l (ix3 h q d) * r (ix3 h k d) := by
  refine (Ideal.matmul_constant_zero_apply dot_S4x128x64_S4x2048x64_S4x128x2048_2_2_1_1_0_0 none l r (ix3 h q k)).trans ?_
  rw [← Equiv.sum_comp (contrEquiv1 dot_S4x128x64_S4x2048x64_S4x128x2048_2_2_1_1_0_0 64 rfl rfl).symm]
  refine Finset.sum_congr rfl fun d _ => ?_
  have hd := contrEquiv1_symm_val dot_S4x128x64_S4x2048x64_S4x128x2048_2_2_1_1_0_0 64 rfl rfl d
  have el : dot_S4x128x64_S4x2048x64_S4x128x2048_2_2_1_1_0_0.lhsIdx (ix3 h q k) ((contrEquiv1 dot_S4x128x64_S4x2048x64_S4x128x2048_2_2_1_1_0_0 64 rfl rfl).symm d) = ix3 h q d :=
    funext fun a => Fin.ext (by
      match a with
      | ⟨0, _⟩ => exact lhs_qk_0 _ _
      | ⟨1, _⟩ => exact lhs_qk_1 _ _
      | ⟨2, _⟩ => exact (lhs_qk_2 _ _).trans hd)
  have er : dot_S4x128x64_S4x2048x64_S4x128x2048_2_2_1_1_0_0.rhsIdx (ix3 h q k) ((contrEquiv1 dot_S4x128x64_S4x2048x64_S4x128x2048_2_2_1_1_0_0 64 rfl rfl).symm d) = ix3 h k d :=
    funext fun a => Fin.ext (by
      match a with
      | ⟨0, _⟩ => exact rhs_qk_0 _ _
      | ⟨1, _⟩ => exact rhs_qk_1 _ _
      | ⟨2, _⟩ => exact (rhs_qk_2 _ _).trans hd)
  rw [el, er]

/-- The second product, weights against values into the zero accumulator, at (h, q, d): the sum over the keys of the
    weight (h, q, k) against the value row (h, k) at d. -/
theorem wv_apply {φ₁ φ₂ : FTy} (l : FVec Ideal S4x128x2048 φ₁) (r : FVec Ideal S4x2048x64 φ₂) (h : Fin 4) (q : Fin 128) (d : Fin 64) :
    matmul dot_S4x128x2048_S4x2048x64_S4x128x64_2_1_1_2_0_0 none l r (constant (F := Ideal) S4x128x64 .f32 0x00000000#32) (ix3 h q d)
      = ∑ k : Fin 2048, l (ix3 h q k) * r (ix3 h k d) := by
  refine (Ideal.matmul_constant_zero_apply dot_S4x128x2048_S4x2048x64_S4x128x64_2_1_1_2_0_0 none l r (ix3 h q d)).trans ?_
  rw [← Equiv.sum_comp (contrEquiv1 dot_S4x128x2048_S4x2048x64_S4x128x64_2_1_1_2_0_0 2048 rfl rfl).symm]
  refine Finset.sum_congr rfl fun k _ => ?_
  have hk := contrEquiv1_symm_val dot_S4x128x2048_S4x2048x64_S4x128x64_2_1_1_2_0_0 2048 rfl rfl k
  have el : dot_S4x128x2048_S4x2048x64_S4x128x64_2_1_1_2_0_0.lhsIdx (ix3 h q d) ((contrEquiv1 dot_S4x128x2048_S4x2048x64_S4x128x64_2_1_1_2_0_0 2048 rfl rfl).symm k) = ix3 h q k :=
    funext fun a => Fin.ext (by
      match a with
      | ⟨0, _⟩ => exact lhs_wv_0 _ _
      | ⟨1, _⟩ => exact lhs_wv_1 _ _
      | ⟨2, _⟩ => exact (lhs_wv_2 _ _).trans hk)
  have er : dot_S4x128x2048_S4x2048x64_S4x128x64_2_1_1_2_0_0.rhsIdx (ix3 h q d) ((contrEquiv1 dot_S4x128x2048_S4x2048x64_S4x128x64_2_1_1_2_0_0 2048 rfl rfl).symm k) = ix3 h k d :=
    funext fun a => Fin.ext (by
      match a with
      | ⟨0, _⟩ => exact rhs_wv_0 _ _
      | ⟨1, _⟩ => exact (rhs_wv_1 _ _).trans hk
      | ⟨2, _⟩ => exact rhs_wv_2 _ _)
  rw [el, er]

/-! ## The body's value in two steps: the scores, then their softmax -/

variable {F : FTy → Type} [FloatOps F]

/-- The scores, as the body computes them from the query, key and mask blocks. -/
def scoresVec (v0 : Vec F S1x4x128x64 .f32) (v2 : Vec F S1x4x2048x64 .f32) (v6 : Vec F S1x128x2048 .i32) : FVec F S4x128x2048 .f32 :=
  have v1 : FVec F S4x128x64 .f32 := shapeCast S4x128x64 v0 shapeCasts_S1x4x128x64_S4x128x64
  have v3 : FVec F S4x2048x64 .f32 := shapeCast S4x2048x64 v2 shapeCasts_S1x4x2048x64_S4x2048x64
  have v7 : IVec S128x2048 32 := shapeCast S128x2048 v6 shapeCasts_S1x128x2048_S128x2048
  have v8 : FVec F S4x128x64 .bf16 := truncf .bf16 v1 bitsLt_bf16_f32
  have v9 : FVec F S4x2048x64 .bf16 := truncf .bf16 v3 bitsLt_bf16_f32
  have cst : FVec F S4x128x2048 .f32 := constant S4x128x2048 .f32 0x00000000#32
  have v10 : FVec F S4x128x2048 .f32 := matmul dot_S4x128x64_S4x2048x64_S4x128x2048_2_2_1_1_0_0 none v8 v9 cst
  have cst_14 : F .f32 := Scalar.ofBits .f32 0x3E000000#32
  have v11 : FVec F S4x128x2048 .f32 := broadcast S4x128x2048 cst_14
  have v12 : FVec F S4x128x2048 .f32 := mulf v10 v11
  have v13 : IVec S128x2048 32 := broadcast S128x2048 0#32
  have v14 : IVec S128x2048 1 := cmpi .sgt v7 v13
  have cst_15 : F .f32 := Scalar.ofBits .f32 0x00000000#32
  have cst_16 : F .f32 := Scalar.ofBits .f32 0xCE6E6B28#32
  have v15 : FVec F S128x2048 .f32 := broadcast S128x2048 cst_15
  have v16 : FVec F S128x2048 .f32 := broadcast S128x2048 cst_16
  have v17 : FVec F S128x2048 .f32 := select v14 v15 v16
  have v18 : FVec F S1x128x2048 .f32 := shapeCast S1x128x2048 v17 shapeCasts_S128x2048_S1x128x2048
  have v19 : FVec F S4x128x2048 .f32 := broadcastTo S4x128x2048 v18 broadcasts_S1x128x2048_S4x128x2048
  have v20 : FVec F S4x128x2048 .f32 := addf v12 v19
  v20

/-- The row-wise softmax, as the body computes it from an array of scores. -/
def softmaxVec (v20 : FVec F S4x128x2048 .f32) : FVec F S4x128x2048 .f32 :=
  have v21 : FVec F S4x128 .f32 := multiReduction .maximumf [2] S4x128 v20 0xFF800000#32 reduces_S4x128x2048_S4x128 (.inl rfl) rfl
  have cst_18 : F .f32 := Scalar.ofBits .f32 0xFF800000#32
  have v22 : FVec F S4x128 .f32 := broadcast S4x128 cst_18
  have v23 : FVec F S4x128 .f32 := maximumf v22 v21
  have v24 : FVec F S4x128x1 .f32 := shapeCast S4x128x1 v23 shapeCasts_S4x128_S4x128x1
  have v25 : FVec F S4x128x2048 .f32 := broadcastTo S4x128x2048 v24 broadcasts_S4x128x1_S4x128x2048
  have v26 : FVec F S4x128x2048 .f32 := subf v20 v25
  have v27 : FVec F S4x128x2048 .f32 := exp v26
  have v28 : FVec F S4x128 .f32 := multiReduction .add [2] S4x128 v27 0x00000000#32 reduces_S4x128x2048_S4x128 (.inl rfl) rfl
  have v29 : FVec F S4x128x1 .f32 := shapeCast S4x128x1 v28 shapeCasts_S4x128_S4x128x1
  have v30 : FVec F S4x128x2048 .f32 := broadcastTo S4x128x2048 v29 broadcasts_S4x128x1_S4x128x2048
  have v31 : FVec F S4x128x2048 .f32 := divf v27 v30
  v31

/-- The weights payload is the softmax of the scores. -/
theorem pay4_split (v0 : Vec F S1x4x128x64 .f32) (v2 : Vec F S1x4x2048x64 .f32) (v6 : Vec F S1x128x2048 .i32) :
    k0_pay4 v0 v2 v6 = softmaxVec (scoresVec v0 v2 v6) := rfl

end Cert.KernelIdeal.Reads

end
-- ==== Proof.KernelPayload.lean ====
/- The kernel body's two stored values read at coordinates on the extended reals, piece by piece: the product of
   queries and keys, the mask's bias, the scores; a row's greatest score and the exponentials of the scores less it, the
   row's sum and the quotient — the row-wise softmax —; and the product of the weights with the values. Each piece is a
   definition cut out of the body's own sequence of operations (the two splitting equations hold by unfolding), read at
   (h, q, k) through the layout and reduction reads and the pointwise operations. The results: the weights at (h, q, k) are the softmax row of the score
   row built from query row (0, h, q), key rows (0, h, ·) and mask row (0, q, ·); the output at (0, h, q, d) is that weights
   row applied to the value rows (0, h, ·). -/
import proofs.«175627_j75505525063894_1_alg».proof.Proof.KernelReads
noncomputable section
open scoped BigOperators
namespace Cert.KernelIdeal.Reads
open Cert.KernelIdeal Cert.KernelIdeal.Gen Idealize.ShloMosaic Idealize.ShloMosaic.ValueIdx
open Cert.Lib.SoftmaxRow Cert.Lib.BatchedReads
variable {F : FTy → Type} [FloatOps F]

/-! ## The pieces of the two steps, each read at coordinates -/

/-- The product of queries and keys, as the body forms it from the two blocks. -/
def qkVec (v0 : Vec F S1x4x128x64 .f32) (v2 : Vec F S1x4x2048x64 .f32) : FVec F S4x128x2048 .f32 :=
  matmul dot_S4x128x64_S4x2048x64_S4x128x2048_2_2_1_1_0_0 none
    (truncf .bf16 (shapeCast S4x128x64 v0 shapeCasts_S1x4x128x64_S4x128x64) bitsLt_bf16_f32)
    (truncf .bf16 (shapeCast S4x2048x64 v2 shapeCasts_S1x4x2048x64_S4x2048x64) bitsLt_bf16_f32)
    (constant S4x128x2048 .f32 0x00000000#32)

/-- The mask's bias, chosen word by word and repeated over the four heads. -/
def biasVec (v6 : Vec F S1x128x2048 .i32) : FVec F S4x128x2048 .f32 :=
  broadcastTo S4x128x2048
    (shapeCast S1x128x2048
      (select (cmpi .sgt (shapeCast S128x2048 v6 shapeCasts_S1x128x2048_S128x2048 : IVec S128x2048 32) (broadcast S128x2048 0#32))
        (broadcast S128x2048 (Scalar.ofBits (F := F) .f32 0x00000000#32) : FVec F S128x2048 .f32)
        (broadcast S128x2048 (Scalar.ofBits (F := F) .f32 0xCE6E6B28#32) : FVec F S128x2048 .f32))
      shapeCasts_S128x2048_S1x128x2048)
    broadcasts_S1x128x2048_S4x128x2048

theorem scoresVec_split (v0 : Vec F S1x4x128x64 .f32) (v2 : Vec F S1x4x2048x64 .f32) (v6 : Vec F S1x128x2048 .i32) :
    scoresVec v0 v2 v6
      = addf (mulf (qkVec v0 v2) (broadcast S4x128x2048 (Scalar.ofBits (F := F) .f32 0x3E000000#32))) (biasVec v6) := rfl

/-- A row's greatest score, repeated along the row. -/
def maxCol (x : FVec F S4x128x2048 .f32) : FVec F S4x128x2048 .f32 :=
  broadcastTo S4x128x2048
    (shapeCast S4x128x1
      (maximumf (broadcast S4x128 (Scalar.ofBits (F := F) .f32 0xFF800000#32) : FVec F S4x128 .f32)
        (multiReduction .maximumf [2] S4x128 x 0xFF800000#32 reduces_S4x128x2048_S4x128 (.inl rfl) rfl))
      shapeCasts_S4x128_S4x128x1)
    broadcasts_S4x128x1_S4x128x2048

/-- The exponentials of the scores less their row's greatest. -/
def expVec (x : FVec F S4x128x2048 .f32) : FVec F S4x128x2048 .f32 := exp (subf x (maxCol x))

/-- A row's sum, repeated along the row. -/
def sumCol (y : FVec F S4x128x2048 .f32) : FVec F S4x128x2048 .f32 :=
  broadcastTo S4x128x2048
    (shapeCast S4x128x1 (multiReduction .add [2] S4x128 y 0x00000000#32 reduces_S4x128x2048_S4x128 (.inl rfl) rfl)
      shapeCasts_S4x128_S4x128x1)
    broadcasts_S4x128x1_S4x128x2048

theorem softmaxVec_split (x : FVec F S4x128x2048 .f32) : softmaxVec x = divf (expVec x) (sumCol (expVec x)) := rfl

/-- The product of queries and keys at (h, q, k), over the blocks' own coordinates. -/
theorem qkVec_apply (P0 : Vec Ideal S1x4x128x64 .f32) (P1 : Vec Ideal S1x4x2048x64 .f32) (h : Fin 4) (q : Fin 128) (k : Fin 2048) :
    qkVec P0 P1 (ix3 h q k) = ∑ d : Fin 64, P0 (ix4 (0 : Fin 1) h q d) * P1 (ix4 (0 : Fin 1) h k d) := by
  unfold qkVec
  refine (qk_apply _ _ h q k).trans (Finset.sum_congr rfl fun d _ => ?_)
  show shapeCast S4x128x64 P0 shapeCasts_S1x4x128x64_S4x128x64 (ix3 h q d)
      * shapeCast S4x2048x64 P1 shapeCasts_S1x4x2048x64_S4x2048x64 (ix3 h k d) = _
  rw [shapeCast_1abc_abc_apply, shapeCast_1abc_abc_apply]

/-- The bias at (h, q, k): that of mask word (0, q, k), whatever the head. -/
theorem biasVec_apply (P2 : Vec Ideal S1x128x2048 .i32) (h : Fin 4) (q : Fin 128) (k : Fin 2048) :
    biasVec (F := Ideal) P2 (ix3 h q k) = maskBias (P2 (ix3 (0 : Fin 1) q k)) := by
  unfold biasVec
  rw [broadcastTo_1bc_abc_apply, shapeCast_ab_1ab_apply]
  show Scalar.select (IntOp.cmpi .sgt (shapeCast S128x2048 P2 shapeCasts_S1x128x2048_S128x2048 (ix2 q k)) 0#32) _ _ = _
  rw [shapeCast_1ab_ab_apply]
  rfl

/-- The scores at (h, q, k). -/
theorem scoresVec_apply (P0 : Vec Ideal S1x4x128x64 .f32) (P1 : Vec Ideal S1x4x2048x64 .f32) (P2 : Vec Ideal S1x128x2048 .i32)
    (h : Fin 4) (q : Fin 128) (k : Fin 2048) :
    scoresVec P0 P1 P2 (ix3 h q k)
      = scoreRow (fun d : Fin 64 => P0 (ix4 (0 : Fin 1) h q d)) (fun (k' : Fin 2048) (d : Fin 64) => P1 (ix4 (0 : Fin 1) h k' d))
          (fun k' : Fin 2048 => P2 (ix3 (0 : Fin 1) q k')) k := by
  rw [scoresVec_split]
  show qkVec P0 P1 (ix3 h q k) * Ideal.ofBits .f32 0x3E000000#32 + biasVec (F := Ideal) P2 (ix3 h q k) = _
  rw [qkVec_apply, biasVec_apply]
  rfl

/-! ## Pointwise operations at an index, over variables -/

theorem maximumf_at {s : Shape} (a b : FVec Ideal s .f32) (i : s.Idx) : maximumf a b i = max (a i) (b i) := rfl
theorem subf_at {s : Shape} (a b : FVec Ideal s .f32) (i : s.Idx) : subf a b i = a i - b i := rfl
theorem exp_at {s : Shape} (a : FVec Ideal s .f32) (i : s.Idx) : exp a i = Ideal.exp (a i) := rfl
theorem divf_at {s : Shape} (a b : FVec Ideal s .f32) (i : s.Idx) : divf a b i = Ideal.div (a i) (b i) := rfl
theorem splat_at {s : Shape} (w : BitVec 32) (i : s.Idx) :
    (broadcast s (Scalar.ofBits (F := Ideal) .f32 w) : FVec Ideal s .f32) i = Ideal.ofBits .f32 w := rfl

/-- The body's row maximum at (h, q): the fold of max from −∞ over the row. -/
theorem rowMaxRed_apply (x : FVec Ideal S4x128x2048 .f32) (h : Fin 4) (q : Fin 128) :
    multiReduction .maximumf [2] S4x128 x 0xFF800000#32 reduces_S4x128x2048_S4x128 (.inl rfl) rfl (ix2 h q)
      = (Finset.univ : Finset (Fin 2048)).fold max (Ideal.ofBits .f32 0xFF800000#32) (fun k => x (ix3 h q k)) :=
  lastAxisMax_apply x 0xFF800000#32 reduces_S4x128x2048_S4x128 (.inl rfl) rfl h q

/-- The body's row sum at (h, q): the sum over the row. -/
theorem rowSumRed_apply (y : FVec Ideal S4x128x2048 .f32) (h : Fin 4) (q : Fin 128) :
    multiReduction .add [2] S4x128 y 0x00000000#32 reduces_S4x128x2048_S4x128 (.inl rfl) rfl (ix2 h q)
      = ∑ k : Fin 2048, y (ix3 h q k) :=
  lastAxisSum_apply y 0x00000000#32 reduces_S4x128x2048_S4x128 (.inl rfl) rfl h q

/-- The repeated row maximum at (h, q, k). -/
theorem maxCol_apply (x : FVec Ideal S4x128x2048 .f32) (h : Fin 4) (q : Fin 128) (k : Fin 2048) :
    maxCol x (ix3 h q k) = rowMax (fun k' : Fin 2048 => x (ix3 h q k')) := by
  unfold maxCol
  rw [broadcastTo_ab1_abc_apply, shapeCast_ab_ab1_apply, maximumf_at, rowMaxRed_apply, splat_at]
  rfl

/-- The exponentials at (h, q, k). -/
theorem expVec_apply (x : FVec Ideal S4x128x2048 .f32) (h : Fin 4) (q : Fin 128) (k : Fin 2048) :
    expVec x (ix3 h q k) = Ideal.exp (x (ix3 h q k) - rowMax (fun k' : Fin 2048 => x (ix3 h q k'))) := by
  unfold expVec
  rw [exp_at, subf_at, maxCol_apply]

/-- The repeated row sum at (h, q, k). -/
theorem sumCol_apply (y : FVec Ideal S4x128x2048 .f32) (h : Fin 4) (q : Fin 128) (k : Fin 2048) :
    sumCol y (ix3 h q k) = ∑ k' : Fin 2048, y (ix3 h q k') := by
  unfold sumCol
  rw [broadcastTo_ab1_abc_apply, shapeCast_ab_ab1_apply, rowSumRed_apply]

/-- The softmax of an array of scores at (h, q, k): the softmax of row (h, q) at k. -/
theorem softmaxVec_apply (x : FVec Ideal S4x128x2048 .f32) (h : Fin 4) (q : Fin 128) (k : Fin 2048) :
    softmaxVec x (ix3 h q k) = softmaxRow (fun k' : Fin 2048 => x (ix3 h q k')) k := by
  rw [softmaxVec_split, divf_at, sumCol_apply, expVec_apply]
  simp only [expVec_apply]
  rfl

/-- THE WEIGHTS the body stores, at (h, q, k): the softmax row of the query row (0, h, q) against the key rows (0, h, ·) and
    the mask row (0, q, ·), at k. -/
theorem pay4_apply (P0 : Vec Ideal S1x4x128x64 .f32) (P1 : Vec Ideal S1x4x2048x64 .f32) (P2 : Vec Ideal S1x128x2048 .i32)
    (h : Fin 4) (q : Fin 128) (k : Fin 2048) :
    k0_pay4 P0 P1 P2 (ix3 h q k)
      = softmaxRow (scoreRow (fun d : Fin 64 => P0 (ix4 (0 : Fin 1) h q d)) (fun (k' : Fin 2048) (d : Fin 64) => P1 (ix4 (0 : Fin 1) h k' d))
          (fun k' : Fin 2048 => P2 (ix3 (0 : Fin 1) q k'))) k := by
  rw [pay4_split, softmaxVec_apply]
  exact congrArg (fun s => softmaxRow s k) (funext fun k' => scoresVec_apply P0 P1 P2 h q k')

/-- THE OUTPUT the body stores, at (0, h, q, d): the weights row (h, q) applied to the value rows (0, h, ·). -/
theorem pay2_apply (P3 : Vec Ideal S1x4x2048x64 .f32) (w : FVec Ideal S4x128x2048 .f32) (u : Fin 1) (h : Fin 4) (q : Fin 128) (d : Fin 64) :
    k0_pay2 (k0_pay3 P3) w (ix4 u h q d)
      = weightedSum (fun k : Fin 2048 => w (ix3 h q k)) (fun (k : Fin 2048) (d : Fin 64) => P3 (ix4 (0 : Fin 1) h k d)) d := by
  unfold k0_pay2 k0_pay3
  dsimp only
  rw [shapeCast_abc_1abc_apply]
  refine (wv_apply _ _ h q d).trans (Finset.sum_congr rfl fun k _ => ?_)
  show w (ix3 h q k) * shapeCast S4x2048x64 P3 shapeCasts_S1x4x2048x64_S4x2048x64 (ix3 h k d) = _
  rw [shapeCast_1abc_abc_apply]

end Cert.KernelIdeal.Reads
end
-- ==== Proof.AttentionSpec.lean ====
/- The two results of the attention layer as functions of the whole argument arrays, index by index, on the extended
   reals. Queries, keys and values are [2, 16, 2048, 64] (batch, head, position, width); the mask is [2, 2048, 2048]
   (batch, query position, key position), shared by the sixteen heads. For batch b, head h and query position q, the
   weights row is the softmax over the key positions k of (∑ d, Q(b,h,q,d) · K(b,h,k,d)) / 8 + bias(M(b,q,k)), and the
   output row is its combination of the value rows, ∑ k, w k · V(b,h,k,d). -/
import proofs.«175627_j75505525063894_1_alg».proof.Proof.LibSoftmaxRow
import Idealize.ShloMosaic.Lib.ValueIdx

noncomputable section

open scoped BigOperators

open Idealize.ShloMosaic Idealize.ShloMosaic.ValueIdx Cert.Lib.SoftmaxRow

namespace Cert.Attention

/-- The weights row of batch b, head h, query position q. -/
def weightAt (Q K : (⟨4, ![2, 16, 2048, 64]⟩ : Shape).Idx → EReal) (M : (⟨3, ![2, 2048, 2048]⟩ : Shape).Idx → BitVec 32)
    (b : Fin 2) (h : Fin 16) (q : Fin 2048) : Fin 2048 → EReal :=
  softmaxRow (scoreRow (fun d : Fin 64 => Q (ix4 b h q d)) (fun (k : Fin 2048) (d : Fin 64) => K (ix4 b h k d)) (fun k : Fin 2048 => M (ix3 b q k)))

/-- The output row of batch b, head h, query position q. -/
def outAt (Q K V : (⟨4, ![2, 16, 2048, 64]⟩ : Shape).Idx → EReal) (M : (⟨3, ![2, 2048, 2048]⟩ : Shape).Idx → BitVec 32)
    (b : Fin 2) (h : Fin 16) (q : Fin 2048) : Fin 64 → EReal :=
  weightedSum (weightAt Q K M b h q) (fun (k : Fin 2048) (d : Fin 64) => V (ix4 b h k d))

/-- The whole weights array. -/
def weights (Q K : (⟨4, ![2, 16, 2048, 64]⟩ : Shape).Idx → EReal) (M : (⟨3, ![2, 2048, 2048]⟩ : Shape).Idx → BitVec 32) :
    (⟨4, ![2, 16, 2048, 2048]⟩ : Shape).Idx → EReal :=
  fun i => weightAt Q K M ⟨(i 0).val, (i 0).isLt⟩ ⟨(i 1).val, (i 1).isLt⟩ ⟨(i 2).val, (i 2).isLt⟩ ⟨(i 3).val, (i 3).isLt⟩

/-- The whole output array. -/
def output (Q K V : (⟨4, ![2, 16, 2048, 64]⟩ : Shape).Idx → EReal) (M : (⟨3, ![2, 2048, 2048]⟩ : Shape).Idx → BitVec 32) :
    (⟨4, ![2, 16, 2048, 64]⟩ : Shape).Idx → EReal :=
  fun i => outAt Q K V M ⟨(i 0).val, (i 0).isLt⟩ ⟨(i 1).val, (i 1).isLt⟩ ⟨(i 2).val, (i 2).isLt⟩ ⟨(i 3).val, (i 3).isLt⟩

theorem weights_ix4 (Q K : (⟨4, ![2, 16, 2048, 64]⟩ : Shape).Idx → EReal) (M : (⟨3, ![2, 2048, 2048]⟩ : Shape).Idx → BitVec 32)
    (b : Fin 2) (h : Fin 16) (q k : Fin 2048) : weights Q K M (ix4 b h q k) = weightAt Q K M b h q k := rfl

theorem output_ix4 (Q K V : (⟨4, ![2, 16, 2048, 64]⟩ : Shape).Idx → EReal) (M : (⟨3, ![2, 2048, 2048]⟩ : Shape).Idx → BitVec 32)
    (b : Fin 2) (h : Fin 16) (q : Fin 2048) (d : Fin 64) : output Q K V M (ix4 b h q d) = outAt Q K V M b h q d := rfl

end Cert.Attention

end
-- ==== Proof.Blocks.lean ====
/- From blocks to arrays. The grid has 2 · 4 · 16 points (batch, group of four heads, tile of 128 query positions). At
   a point with block indices (b, g, j) the query, output and weights windows hold heads 4g … 4g+3 and query positions
   128j … 128j+127 of batch b; the key and value windows hold the same heads and every key position; the mask window holds
   query positions 128j … 128j+127 of batch b and every key position. So the element of a block at coordinates (0, h, q, ·)
   sits in its array at (b, 4g + h, 128j + q, ·), and the rows the body reads for it are exactly the rows the
   specification reads for that array element: what a point writes back is the block of the specification's array. The
   blocks of the 128 points tile each output array, so after the run each output array IS the specification's. -/
import proofs.«175627_j75505525063894_1_alg».proof.Proof.Gen.KernelIdeal.Value
import proofs.«175627_j75505525063894_1_alg».proof.Proof.KernelPayload
import proofs.«175627_j75505525063894_1_alg».proof.Proof.AttentionSpec
import Idealize.ShloMosaic.Lib.Pipeline.Value
import Idealize.ShloMosaic.Lib.ValueIdx

noncomputable section

open scoped BigOperators

namespace Cert.KernelIdeal.Blocks

open Cert.KernelIdeal Cert.KernelIdeal.Gen Cert.KernelIdeal.Reads Idealize.ShloMosaic Idealize.ShloMosaic.TcCoe Idealize.SL.Sem
open Idealize.ShloMosaic.ValueIdx Cert.Lib.SoftmaxRow Cert.Attention
open Idealize.ShloMosaic.Pipeline (Dat)

/-! ## One element of a block against one element of the array -/

/-- If the rows a block element reads are the rows an array element's specification reads, the stored weight is the
    specification's. -/
theorem pay4_eq_weightAt (P0 : Vec Ideal S1x4x128x64 .f32) (P1 : Vec Ideal S1x4x2048x64 .f32) (P2 : Vec Ideal S1x128x2048 .i32)
    (Q K : (⟨4, ![2, 16, 2048, 64]⟩ : Shape).Idx → EReal) (M : (⟨3, ![2, 2048, 2048]⟩ : Shape).Idx → BitVec 32)
    (h : Fin 4) (q : Fin 128) (k : Fin 2048) (b : Fin 2) (hh : Fin 16) (qq kk : Fin 2048)
    (hQ : ∀ d : Fin 64, P0 (ix4 (0 : Fin 1) h q d) = Q (ix4 b hh qq d))
    (hK : ∀ (k' : Fin 2048) (d : Fin 64), P1 (ix4 (0 : Fin 1) h k' d) = K (ix4 b hh k' d))
    (hM : ∀ k' : Fin 2048, P2 (ix3 (0 : Fin 1) q k') = M (ix3 b qq k'))
    (hk : k = kk) :
    k0_pay4 P0 P1 P2 (ix3 h q k) = weightAt Q K M b hh qq kk := by
  subst hk
  rw [pay4_apply]
  unfold weightAt
  simp only [hQ, hK, hM]

/-- The same for the stored output. -/
theorem pay2_eq_outAt (P0 : Vec Ideal S1x4x128x64 .f32) (P1 P3 : Vec Ideal S1x4x2048x64 .f32) (P2 : Vec Ideal S1x128x2048 .i32)
    (Q K W : (⟨4, ![2, 16, 2048, 64]⟩ : Shape).Idx → EReal) (M : (⟨3, ![2, 2048, 2048]⟩ : Shape).Idx → BitVec 32)
    (y : S1x4x128x64.Idx) (u : Fin 1) (h : Fin 4) (q : Fin 128) (d : Fin 64) (hy : y = ix4 u h q d)
    (b : Fin 2) (hh : Fin 16) (qq : Fin 2048) (dd : Fin 64)
    (hQ : ∀ d : Fin 64, P0 (ix4 (0 : Fin 1) h q d) = Q (ix4 b hh qq d))
    (hK : ∀ (k' : Fin 2048) (d : Fin 64), P1 (ix4 (0 : Fin 1) h k' d) = K (ix4 b hh k' d))
    (hV : ∀ (k' : Fin 2048) (d : Fin 64), P3 (ix4 (0 : Fin 1) h k' d) = W (ix4 b hh k' d))
    (hM : ∀ k' : Fin 2048, P2 (ix3 (0 : Fin 1) q k') = M (ix3 b qq k'))
    (hd : d = dd) :
    k0_pay2 (k0_pay3 P3) (k0_pay4 P0 P1 P2) y = outAt Q K W M b hh qq dd := by
  subst hd hy
  rw [pay2_apply]
  unfold outAt weightAt
  simp only [pay4_apply, hQ, hK, hM, hV]

/-! ## The index maps over the grid -/

variable (m : (ℓ : Loc nD τ sig) → Buf (Elt Ideal) ℓ) (ρ : Dev nD → PrngReg)

theorem zero4 : (![0, 0, 0, 0] : Fin 4 → Nat) = fun _ => 0 := funext fun a => by fin_cases a <;> rfl
theorem zero3 : (![0, 0, 0] : Fin 3 → Nat) = fun _ => 0 := funext fun a => by fin_cases a <;> rfl

/-- How the six windows' block indices move together over the 128 points, decided: queries, output and weights share
    (b, g, j); keys and values share (b, g) and stay at 0 on the position axis; the mask has (b, j); every last axis stays
    at 0; and b ≤ 1, g ≤ 3, j ≤ 15. -/
theorem idx_facts : ∀ t : Fin cfg0.N,
    win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0
    ∧ win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0
    ∧ win0_3.index t (0 : Fin 3) = win0_5.index t (0 : Fin 4) ∧ win0_3.index t (1 : Fin 3) = win0_5.index t (2 : Fin 4)
    ∧ win0_3.index t (2 : Fin 3) = 0
    ∧ win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = 0
    ∧ win0_5.index t (3 : Fin 4) = 0
    ∧ win0_5.index t (0 : Fin 4) ≤ 1 ∧ win0_5.index t (1 : Fin 4) ≤ 3 ∧ win0_5.index t (2 : Fin 4) ≤ 15 :=
  (by decide +kernel : ∀ t : Fin grid0.N, _)

/-- Every (b, g, j) is some point's. -/
theorem idx_onto : ∀ (q0 : Fin 2) (q1 : Fin 4) (q2 : Fin 16), ∃ t : Fin cfg0.N,
    win0_5.index t (0 : Fin 4) = q0.val ∧ win0_5.index t (1 : Fin 4) = q1.val ∧ win0_5.index t (2 : Fin 4) = q2.val :=
  (by decide +kernel : ∀ (q0 : Fin 2) (q1 : Fin 4) (q2 : Fin 16), ∃ t : Fin grid0.N,
    win0_5.index t (0 : Fin 4) = q0.val ∧ win0_5.index t (1 : Fin 4) = q1.val ∧ win0_5.index t (2 : Fin 4) = q2.val)

/-! ## The weights array -/

/-- What point `t` writes back to the weights array is block `t` of the specification's weights. -/
theorem flushed5_eq (c : Dev nD) (t : Fin cfg0.N) :
    (dats m 0 c).flushed 5 t
      = ((cfg0.win 5).blk t).view.read (Elt Ideal) (weights (V m c main_arg0) (V m c main_arg1) (V m c main_arg3)) := by
  rw [Value.flushed5]
  unfold out0_5
  simp only [View.ld_unit_zero (S := S1x4x128x64) zero4, View.ld_unit_zero (S := S1x4x2048x64) zero4,
    View.ld_unit_zero (S := S1x128x2048) zero3]
  obtain ⟨e00, e01, e02, e03, e10, e11, e12, e13, e20, e21, e22, e23, e30, e31, e32, e40, e41, e42, e43, e53, b0, b1, b2⟩ := idx_facts t
  funext y
  have hy0 : (y 0).val < 1 := (y 0).isLt
  have hy1 : (y 1).val < 4 := (y 1).isLt
  have hy2 : (y 2).val < 128 := (y 2).isLt
  have hy3 : (y 3).val < 2048 := (y 3).isLt
  refine (Value.canon5_eq (F := Ideal) (iblk m c 0 t) (iblk m c 1 t) (iblk m c 3 t) y).trans ?_
  have ey : Value.ix5_0 y = ix3 (⟨(y 1).val, hy1⟩ : Fin 4) (⟨(y 2).val, hy2⟩ : Fin 128) (⟨(y 3).val, hy3⟩ : Fin 2048) :=
    funext fun a => by
      match a with
      | ⟨0, _⟩ => rfl
      | ⟨1, _⟩ => rfl
      | ⟨2, _⟩ => rfl
  have hb : win0_5.index t (0 : Fin 4) * 1 + 1 * (y 0).val < 2 := by omega
  have hh' : win0_5.index t (1 : Fin 4) * 4 + 1 * (y 1).val < 16 := by omega
  have hq' : win0_5.index t (2 : Fin 4) * 128 + 1 * (y 2).val < 2048 := by omega
  have hk' : win0_5.index t (3 : Fin 4) * 2048 + 1 * (y 3).val < 2048 := by omega
  show k0_pay4 (iblk m c 0 t) (iblk m c 1 t) (iblk m c 3 t) (Value.ix5_0 y)
    = weightAt (V m c main_arg0) (V m c main_arg1) (V m c main_arg3) ⟨_, hb⟩ ⟨_, hh'⟩ ⟨_, hq'⟩ ⟨_, hk'⟩
  rw [ey]
  refine pay4_eq_weightAt _ _ _ _ _ _ _ _ _ _ _ _ _ ?_ ?_ ?_ ?_
  · intro d
    show V m c main_arg0 (((cfg0.win 0).blk t).view.emb (ix4 (0 : Fin 1) ⟨(y 1).val, hy1⟩ ⟨(y 2).val, hy2⟩ d)) = _
    refine congrArg (V m c main_arg0) (funext fun a => Fin.ext ?_)
    match a with
    | ⟨0, _⟩ => show win0_0.index t (0 : Fin 4) * 1 + 1 * 0 = win0_5.index t (0 : Fin 4) * 1 + 1 * (y 0).val; omega
    | ⟨1, _⟩ => show win0_0.index t (1 : Fin 4) * 4 + 1 * (y 1).val = win0_5.index t (1 : Fin 4) * 4 + 1 * (y 1).val; omega
    | ⟨2, _⟩ => show win0_0.index t (2 : Fin 4) * 128 + 1 * (y 2).val = win0_5.index t (2 : Fin 4) * 128 + 1 * (y 2).val; omega
    | ⟨3, _⟩ => show win0_0.index t (3 : Fin 4) * 64 + 1 * d.val = d.val; omega
  · intro k' d
    show V m c main_arg1 (((cfg0.win 1).blk t).view.emb (ix4 (0 : Fin 1) ⟨(y 1).val, hy1⟩ k' d)) = _
    refine congrArg (V m c main_arg1) (funext fun a => Fin.ext ?_)
    match a with
    | ⟨0, _⟩ => show win0_1.index t (0 : Fin 4) * 1 + 1 * 0 = win0_5.index t (0 : Fin 4) * 1 + 1 * (y 0).val; omega
    | ⟨1, _⟩ => show win0_1.index t (1 : Fin 4) * 4 + 1 * (y 1).val = win0_5.index t (1 : Fin 4) * 4 + 1 * (y 1).val; omega
    | ⟨2, _⟩ => show win0_1.index t (2 : Fin 4) * 2048 + 1 * k'.val = k'.val; omega
    | ⟨3, _⟩ => show win0_1.index t (3 : Fin 4) * 64 + 1 * d.val = d.val; omega
  · intro k'
    show V m c main_arg3 (((cfg0.win 3).blk t).view.emb (ix3 (0 : Fin 1) ⟨(y 2).val, hy2⟩ k')) = _
    refine congrArg (V m c main_arg3) (funext fun a => Fin.ext ?_)
    match a with
    | ⟨0, _⟩ => show win0_3.index t (0 : Fin 3) * 1 + 1 * 0 = win0_5.index t (0 : Fin 4) * 1 + 1 * (y 0).val; omega
    | ⟨1, _⟩ => show win0_3.index t (1 : Fin 3) * 128 + 1 * (y 2).val = win0_5.index t (2 : Fin 4) * 128 + 1 * (y 2).val; omega
    | ⟨2, _⟩ => show win0_3.index t (2 : Fin 3) * 2048 + 1 * k'.val = k'.val; omega
  · exact Fin.ext (by show (y 3).val = win0_5.index t (3 : Fin 4) * 2048 + 1 * (y 3).val; omega)

/-- An index of the weights array is in point `t`'s block iff each coordinate is in the block's range on its axis. -/
theorem mem_blk5 (t : Fin cfg0.N) (i : S2x16x2048x2048.Idx) :
    i ∈ ((cfg0.win 5).blk t).view.set ↔ ∀ a : Fin 4, win0_5.index t a * S1x4x128x2048.size a ≤ (i a).val
      ∧ (i a).val < win0_5.index t a * S1x4x128x2048.size a + S1x4x128x2048.size a := by
  show i ∈ ((View.whole main_v0_1).slice (win0_5.rect t)).set ↔ _
  rw [View.set_slice_whole, Rect.mem_set_unit]
  exact Iff.rfl

/-- Every index of the weights array is in some point's block: that of (i₀, i₁ / 4, i₂ / 128). -/
theorem cover5 (i : S2x16x2048x2048.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, q0, q1, q2⟩ := idx_onto ⟨(i 0).val, hi0⟩ ⟨(i 1).val / 4, by omega⟩ ⟨(i 2).val / 128, by omega⟩
  obtain ⟨e00, e01, e02, e03, e10, e11, e12, e13, e20, e21, e22, e23, e30, e31, e32, e40, e41, e42, e43, e53, b0, b1, b2⟩ := idx_facts t
  have q0' : win0_5.index t (0 : Fin 4) = (i 0).val := q0
  have q1' : win0_5.index t (1 : Fin 4) = (i 1).val / 4 := q1
  have q2' : win0_5.index t (2 : Fin 4) = (i 2).val / 128 := q2
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 4 ≤ (i 1).val ∧ (i 1).val < win0_5.index t (1 : Fin 4) * 4 + 4; omega
  | ⟨2, _⟩ => show win0_5.index t (2 : Fin 4) * 128 ≤ (i 2).val ∧ (i 2).val < win0_5.index t (2 : Fin 4) * 128 + 128; omega
  | ⟨3, _⟩ => show win0_5.index t (3 : Fin 4) * 2048 ≤ (i 3).val ∧ (i 3).val < win0_5.index t (3 : Fin 4) * 2048 + 2048; omega

/-- The weights array after the run is the specification's. -/
theorem final5 (c : Dev nD) :
    (dats m 0 c).arrAt 5 cfg0.N = weights (V m c main_arg0) (V m c main_arg1) (V m c main_arg3) :=
  (dats m 0 c).arrAt_eq_of_cover 5 _ (fun t _ => flushed5_eq m c t) cover5

/-! ## The output array -/

/-- What point `t` writes back to the output array is block `t` of the specification's output. -/
theorem flushed4_eq (c : Dev nD) (t : Fin cfg0.N) :
    (dats m 0 c).flushed 4 t
      = ((cfg0.win 4).blk t).view.read (Elt Ideal) (output (V m c main_arg0) (V m c main_arg1) (V m c main_arg2) (V m c main_arg3)) := by
  rw [Value.flushed4]
  unfold out0_4
  rw [View.canon_unit_zero zero4]
  simp only [View.ld_unit_zero (S := S1x4x128x64) zero4, View.ld_unit_zero (S := S1x4x2048x64) zero4,
    View.ld_unit_zero (S := S1x128x2048) zero3]
  obtain ⟨e00, e01, e02, e03, e10, e11, e12, e13, e20, e21, e22, e23, e30, e31, e32, e40, e41, e42, e43, e53, b0, b1, b2⟩ := idx_facts t
  funext y
  have hy0 : (y 0).val < 1 := (y 0).isLt
  have hy1 : (y 1).val < 4 := (y 1).isLt
  have hy2 : (y 2).val < 128 := (y 2).isLt
  have hy3 : (y 3).val < 64 := (y 3).isLt
  have ey : y = ix4 (⟨(y 0).val, hy0⟩ : Fin 1) (⟨(y 1).val, hy1⟩ : Fin 4) (⟨(y 2).val, hy2⟩ : Fin 128) (⟨(y 3).val, hy3⟩ : Fin 64) :=
    funext fun a => by
      match a with
      | ⟨0, _⟩ => rfl
      | ⟨1, _⟩ => rfl
      | ⟨2, _⟩ => rfl
      | ⟨3, _⟩ => rfl
  have hb : win0_4.index t (0 : Fin 4) * 1 + 1 * (y 0).val < 2 := by omega
  have hh' : win0_4.index t (1 : Fin 4) * 4 + 1 * (y 1).val < 16 := by omega
  have hq' : win0_4.index t (2 : Fin 4) * 128 + 1 * (y 2).val < 2048 := by omega
  have hd' : win0_4.index t (3 : Fin 4) * 64 + 1 * (y 3).val < 64 := by omega
  show k0_pay2 (k0_pay3 (iblk m c 2 t)) (k0_pay4 (iblk m c 0 t) (iblk m c 1 t) (iblk m c 3 t)) y
    = outAt (V m c main_arg0) (V m c main_arg1) (V m c main_arg2) (V m c main_arg3) ⟨_, hb⟩ ⟨_, hh'⟩ ⟨_, hq'⟩ ⟨_, hd'⟩
  refine pay2_eq_outAt _ _ _ _ _ _ _ _ y _ _ _ _ ey _ _ _ _ ?_ ?_ ?_ ?_ ?_
  · intro d
    show V m c main_arg0 (((cfg0.win 0).blk t).view.emb (ix4 (0 : Fin 1) ⟨(y 1).val, hy1⟩ ⟨(y 2).val, hy2⟩ d)) = _
    refine congrArg (V m c main_arg0) (funext fun a => Fin.ext ?_)
    match a with
    | ⟨0, _⟩ => show win0_0.index t (0 : Fin 4) * 1 + 1 * 0 = win0_4.index t (0 : Fin 4) * 1 + 1 * (y 0).val; omega
    | ⟨1, _⟩ => show win0_0.index t (1 : Fin 4) * 4 + 1 * (y 1).val = win0_4.index t (1 : Fin 4) * 4 + 1 * (y 1).val; omega
    | ⟨2, _⟩ => show win0_0.index t (2 : Fin 4) * 128 + 1 * (y 2).val = win0_4.index t (2 : Fin 4) * 128 + 1 * (y 2).val; omega
    | ⟨3, _⟩ => show win0_0.index t (3 : Fin 4) * 64 + 1 * d.val = d.val; omega
  · intro k' d
    show V m c main_arg1 (((cfg0.win 1).blk t).view.emb (ix4 (0 : Fin 1) ⟨(y 1).val, hy1⟩ k' d)) = _
    refine congrArg (V m c main_arg1) (funext fun a => Fin.ext ?_)
    match a with
    | ⟨0, _⟩ => show win0_1.index t (0 : Fin 4) * 1 + 1 * 0 = win0_4.index t (0 : Fin 4) * 1 + 1 * (y 0).val; omega
    | ⟨1, _⟩ => show win0_1.index t (1 : Fin 4) * 4 + 1 * (y 1).val = win0_4.index t (1 : Fin 4) * 4 + 1 * (y 1).val; omega
    | ⟨2, _⟩ => show win0_1.index t (2 : Fin 4) * 2048 + 1 * k'.val = k'.val; omega
    | ⟨3, _⟩ => show win0_1.index t (3 : Fin 4) * 64 + 1 * d.val = d.val; omega
  · intro k' d
    show V m c main_arg2 (((cfg0.win 2).blk t).view.emb (ix4 (0 : Fin 1) ⟨(y 1).val, hy1⟩ k' d)) = _
    refine congrArg (V m c main_arg2) (funext fun a => Fin.ext ?_)
    match a with
    | ⟨0, _⟩ => show win0_2.index t (0 : Fin 4) * 1 + 1 * 0 = win0_4.index t (0 : Fin 4) * 1 + 1 * (y 0).val; omega
    | ⟨1, _⟩ => show win0_2.index t (1 : Fin 4) * 4 + 1 * (y 1).val = win0_4.index t (1 : Fin 4) * 4 + 1 * (y 1).val; omega
    | ⟨2, _⟩ => show win0_2.index t (2 : Fin 4) * 2048 + 1 * k'.val = k'.val; omega
    | ⟨3, _⟩ => show win0_2.index t (3 : Fin 4) * 64 + 1 * d.val = d.val; omega
  · intro k'
    show V m c main_arg3 (((cfg0.win 3).blk t).view.emb (ix3 (0 : Fin 1) ⟨(y 2).val, hy2⟩ k')) = _
    refine congrArg (V m c main_arg3) (funext fun a => Fin.ext ?_)
    match a with
    | ⟨0, _⟩ => show win0_3.index t (0 : Fin 3) * 1 + 1 * 0 = win0_4.index t (0 : Fin 4) * 1 + 1 * (y 0).val; omega
    | ⟨1, _⟩ => show win0_3.index t (1 : Fin 3) * 128 + 1 * (y 2).val = win0_4.index t (2 : Fin 4) * 128 + 1 * (y 2).val; omega
    | ⟨2, _⟩ => show win0_3.index t (2 : Fin 3) * 2048 + 1 * k'.val = k'.val; omega
  · exact Fin.ext (by show (y 3).val = win0_4.index t (3 : Fin 4) * 64 + 1 * (y 3).val; omega)

/-- An index of the output array is in point `t`'s block iff each coordinate is in the block's range on its axis. -/
theorem mem_blk4 (t : Fin cfg0.N) (i : S2x16x2048x64.Idx) :
    i ∈ ((cfg0.win 4).blk t).view.set ↔ ∀ a : Fin 4, win0_4.index t a * S1x4x128x64.size a ≤ (i a).val
      ∧ (i a).val < win0_4.index t a * S1x4x128x64.size a + S1x4x128x64.size a := by
  show i ∈ ((View.whole main_v0_0).slice (win0_4.rect t)).set ↔ _
  rw [View.set_slice_whole, Rect.mem_set_unit]
  exact Iff.rfl

/-- Every index of the output array is in some point's block. -/
theorem cover4 (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, q0, q1, q2⟩ := idx_onto ⟨(i 0).val, hi0⟩ ⟨(i 1).val / 4, by omega⟩ ⟨(i 2).val / 128, by omega⟩
  obtain ⟨e00, e01, e02, e03, e10, e11, e12, e13, e20, e21, e22, e23, e30, e31, e32, e40, e41, e42, e43, e53, b0, b1, b2⟩ := idx_facts t
  have q0' : win0_5.index t (0 : Fin 4) = (i 0).val := q0
  have q1' : win0_5.index t (1 : Fin 4) = (i 1).val / 4 := q1
  have q2' : win0_5.index t (2 : Fin 4) = (i 2).val / 128 := q2
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 4 ≤ (i 1).val ∧ (i 1).val < win0_4.index t (1 : Fin 4) * 4 + 4; omega
  | ⟨2, _⟩ => show win0_4.index t (2 : Fin 4) * 128 ≤ (i 2).val ∧ (i 2).val < win0_4.index t (2 : Fin 4) * 128 + 128; omega
  | ⟨3, _⟩ => show win0_4.index t (3 : Fin 4) * 64 ≤ (i 3).val ∧ (i 3).val < win0_4.index t (3 : Fin 4) * 64 + 64; omega

/-- The output array after the run is the specification's. -/
theorem final4 (c : Dev nD) :
    (dats m 0 c).arrAt 4 cfg0.N = output (V m c main_arg0) (V m c main_arg1) (V m c main_arg2) (V m c main_arg3) :=
  (dats m 0 c).arrAt_eq_of_cover 4 _ (fun t _ => flushed4_eq m c t) cover4

/-! ## The run, read -/

/-- Every weakly fair execution of the kernel's program ends with the output array and the weights array at the
    specification's functions of the argument arrays, the arguments unchanged. -/
theorem run : θ_run defs (onTc (τ := τ) (main (F := Ideal))) ⟨m, fun _ => 0, ρ⟩ fun r => ∀ c : Dev nD,
      r.2.mem ((c : Thread nD τ).loc main_v0_0)
        = output (m ((c : Thread nD τ).loc main_arg0)) (m ((c : Thread nD τ).loc main_arg1)) (m ((c : Thread nD τ).loc main_arg2)) (m ((c : Thread nD τ).loc main_arg3))
      ∧ r.2.mem ((c : Thread nD τ).loc main_v0_1)
        = weights (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Blocks

end
-- ==== Proof.RefReads.lean ====
/- The reference's two results are the attention layer's arrays of the specification module, index by index.
   Its scores are the contraction over the width, times 1 / √64, plus the bias −10⁹ · (1 − clamp of the mask word to
   [0, 1]), the mask broadcast over the heads; both constants are the specification's by the two laws of the softmax-row
   module. Its row maximum is the host's maximum along the key axis from −∞, compared with −∞ once more; its
   denominator the host's sum along the same axis from 0; its output the contraction of the weights with the values
   over the key axis. -/
import proofs.«175627_j75505525063894_1_alg».proof.Proof.Gen.ReferenceIdeal.Read
import proofs.«175627_j75505525063894_1_alg».proof.Proof.LibSoftmaxRow
import proofs.«175627_j75505525063894_1_alg».proof.Proof.AttentionSpec
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Lib.SoftmaxRow Cert.Attention

/-- The host's maximum along the key axis, read at (b, h, q): the fold of max from −∞ over the scores of that row. -/
theorem val_main_v14_apply (x0 x1 : (⟨S2x16x2048x64, .f32⟩ : BufTy).Contents (Elt Ideal)) (x3 : (⟨S2x2048x2048, .i32⟩ : BufTy).Contents (Elt Ideal)) (j : S2x16x2048.Idx) :
    val_main_v14 (F := Ideal) x0 x1 x3 j
      = (Finset.univ : Finset (Fin 2048)).fold max (Ideal.ofBits .f32 0xFF800000#32)
          (fun l => val_main_v13 (F := Ideal) x0 x1 x3 (idx_main_v21 j l)) := by
  unfold val_main_v14
  generalize val_main_v13 (F := Ideal) x0 x1 x3 = y
  exact (Host.reduce_eq_fold_single (FloatOps.maximumf (F := Ideal) (φ := .f32)) y _ reducesTo_S2x16x2048x2048_S2x16x2048_d3
      (by decide) h_S_ j).trans
    (congrArg (fun f => (Finset.univ : Finset (Fin 2048)).fold max (Ideal.ofBits .f32 0xFF800000#32) f)
      (funext fun l => congrArg y (funext fun a => Fin.ext (by
        match a with
        | ⟨0, _⟩ => rfl
        | ⟨1, _⟩ => rfl
        | ⟨2, _⟩ => rfl
        | ⟨3, _⟩ => rfl))))

/-- The reference's score at (b, h, q, k) is the specification's. -/
theorem score_apply (x0 x1 : (⟨S2x16x2048x64, .f32⟩ : BufTy).Contents (Elt Ideal)) (x3 : (⟨S2x2048x2048, .i32⟩ : BufTy).Contents (Elt Ideal)) (b : Fin 2) (h : Fin 16) (q k : Fin 2048) :
    val_main_v13 (F := Ideal) x0 x1 x3 (ix4 b h q k) = (scoreRow (fun d : Fin 64 => x0 (ix4 b h q d)) (fun (k' : Fin 2048) (d : Fin 64) => x1 (ix4 b h k' d)) (fun k' : Fin 2048 => x3 (ix3 b q k'))) k := by
  have hl : ∀ d : Fin 64, lidx_main_v2 (ix4 b h q k) d = ix4 b h q d := fun d => funext fun a => by
    match a with
    | ⟨0, _⟩ => rfl
    | ⟨1, _⟩ => rfl
    | ⟨2, _⟩ => rfl
    | ⟨3, _⟩ => rfl
  have hr : ∀ d : Fin 64, ridx_main_v2 (ix4 b h q k) d = ix4 b h k d := fun d => funext fun a => by
    match a with
    | ⟨0, _⟩ => rfl
    | ⟨1, _⟩ => rfl
    | ⟨2, _⟩ => rfl
    | ⟨3, _⟩ => rfl
  have hm : idx_main_v11 (idx_main_v12 (ix4 b h q k)) = ix3 b q k := funext fun a => by
    match a with
    | ⟨0, _⟩ => rfl
    | ⟨1, _⟩ => rfl
    | ⟨2, _⟩ => rfl
  rw [val_main_v13_apply, val_main_v4_apply, val_main_v2_apply, val_main_v3_apply, val_main_v1_apply, val_main_cst_0_apply,
    val_main_v0_apply, val_main_cst_apply, val_main_v12_apply, val_main_v11_apply, val_main_v10_apply, val_main_v9_apply,
    val_main_cst_3_apply, val_main_v8_apply, val_main_v7_apply, val_main_cst_2_apply, val_main_v6_apply,
    val_main_call0_v4_apply, val_main_call0_v3_apply, val_main_c_apply, val_main_call0_v2_apply, val_main_call0_v1_apply,
    val_main_call0_v0_apply, val_main_c_1_apply, val_main_v5_apply, hm]
  simp only [hl, hr]
  show (∑ d : Fin 64, x0 (ix4 b h q d) * x1 (ix4 b h k d))
      * Ideal.div (Ideal.ofBits .f32 0x3F800000#32) (Ideal.sqrt (Ideal.ofBits .f32 0x42800000#32))
      + Ideal.ofBits .f32 0xCE6E6B28#32 * (Ideal.ofBits .f32 0x3F800000#32
        - min (FloatOps.sitofp (F := Ideal) .f32 (1#32 : BitVec 32))
            (max (FloatOps.sitofp (F := Ideal) .f32 (0#32 : BitVec 32)) (FloatOps.sitofp (F := Ideal) .f32 (x3 (ix3 b q k))))) = _
  rw [one_div_sqrt_64, maskBias_clamped]
  rfl

/-- The reference's row maximum, broadcast back along the keys, at (b, h, q, k). -/
theorem max_apply (x0 x1 : (⟨S2x16x2048x64, .f32⟩ : BufTy).Contents (Elt Ideal)) (x3 : (⟨S2x2048x2048, .i32⟩ : BufTy).Contents (Elt Ideal)) (b : Fin 2) (h : Fin 16) (q k : Fin 2048) :
    val_main_v18 (F := Ideal) x0 x1 x3 (ix4 b h q k) = rowMax (scoreRow (fun d : Fin 64 => x0 (ix4 b h q d)) (fun (k' : Fin 2048) (d : Fin 64) => x1 (ix4 b h k' d)) (fun k' : Fin 2048 => x3 (ix3 b q k'))) := by
  have hj : idx_main_v17 (idx_main_v18 (ix4 b h q k)) = ix3 b h q := funext fun a => by
    match a with
    | ⟨0, _⟩ => rfl
    | ⟨1, _⟩ => rfl
    | ⟨2, _⟩ => rfl
  have hrow : (fun l : Fin 2048 => val_main_v13 (F := Ideal) x0 x1 x3 (idx_main_v21 (ix3 b h q) l)) = (scoreRow (fun d : Fin 64 => x0 (ix4 b h q d)) (fun (k' : Fin 2048) (d : Fin 64) => x1 (ix4 b h k' d)) (fun k' : Fin 2048 => x3 (ix3 b q k'))) :=
    funext fun l => by
      have e : idx_main_v21 (ix3 b h q) l = ix4 b h q l := funext fun a => by
        match a with
        | ⟨0, _⟩ => rfl
        | ⟨1, _⟩ => rfl
        | ⟨2, _⟩ => rfl
        | ⟨3, _⟩ => rfl
      rw [e]
      exact score_apply x0 x1 x3 b h q l
  rw [val_main_v18_apply, val_main_v17_apply, val_main_v16_apply, val_main_v15_apply, val_main_cst_5_apply, hj,
    val_main_v14_apply, hrow]
  rfl

/-- The reference's exponentials at (b, h, q, k). -/
theorem exp_apply (x0 x1 : (⟨S2x16x2048x64, .f32⟩ : BufTy).Contents (Elt Ideal)) (x3 : (⟨S2x2048x2048, .i32⟩ : BufTy).Contents (Elt Ideal)) (b : Fin 2) (h : Fin 16) (q k : Fin 2048) :
    val_main_v20 (F := Ideal) x0 x1 x3 (ix4 b h q k) = Ideal.exp ((scoreRow (fun d : Fin 64 => x0 (ix4 b h q d)) (fun (k' : Fin 2048) (d : Fin 64) => x1 (ix4 b h k' d)) (fun k' : Fin 2048 => x3 (ix3 b q k'))) k - rowMax (scoreRow (fun d : Fin 64 => x0 (ix4 b h q d)) (fun (k' : Fin 2048) (d : Fin 64) => x1 (ix4 b h k' d)) (fun k' : Fin 2048 => x3 (ix3 b q k')))) := by
  rw [val_main_v20_apply, val_main_v19_apply, score_apply, max_apply]
  rfl

/-- The reference's weights at (b, h, q, k) are the specification's. -/
theorem weightAt_apply (x0 x1 : (⟨S2x16x2048x64, .f32⟩ : BufTy).Contents (Elt Ideal)) (x3 : (⟨S2x2048x2048, .i32⟩ : BufTy).Contents (Elt Ideal)) (b : Fin 2) (h : Fin 16) (q k : Fin 2048) :
    val_main_v24 (F := Ideal) x0 x1 x3 (ix4 b h q k) = weightAt x0 x1 x3 b h q k := by
  have hj : idx_main_v22 (idx_main_v23 (ix4 b h q k)) = ix3 b h q := funext fun a => by
    match a with
    | ⟨0, _⟩ => rfl
    | ⟨1, _⟩ => rfl
    | ⟨2, _⟩ => rfl
  have hrow : (fun l : Fin 2048 => val_main_v20 (F := Ideal) x0 x1 x3 (idx_main_v21 (ix3 b h q) l))
      = fun l : Fin 2048 => Ideal.exp ((scoreRow (fun d : Fin 64 => x0 (ix4 b h q d)) (fun (k' : Fin 2048) (d : Fin 64) => x1 (ix4 b h k' d)) (fun k' : Fin 2048 => x3 (ix3 b q k'))) l - rowMax (scoreRow (fun d : Fin 64 => x0 (ix4 b h q d)) (fun (k' : Fin 2048) (d : Fin 64) => x1 (ix4 b h k' d)) (fun k' : Fin 2048 => x3 (ix3 b q k')))) :=
    funext fun l => by
      have e : idx_main_v21 (ix3 b h q) l = ix4 b h q l := funext fun a => by
        match a with
        | ⟨0, _⟩ => rfl
        | ⟨1, _⟩ => rfl
        | ⟨2, _⟩ => rfl
        | ⟨3, _⟩ => rfl
      rw [e]
      exact exp_apply x0 x1 x3 b h q l
  rw [val_main_v24_apply, val_main_v23_apply, val_main_v22_apply, hj, val_main_v21_apply, val_main_cst_6_apply, exp_apply]
  simp only [hrow]
  show Ideal.div _ (Ideal.ofBits .f32 0x00000000#32 + _) = _
  rw [Ideal.ofBits_zero_f32, zero_add]
  rfl

/-- The reference's weights array is the specification's. -/
theorem weights_eq (x0 x1 : (⟨S2x16x2048x64, .f32⟩ : BufTy).Contents (Elt Ideal)) (x3 : (⟨S2x2048x2048, .i32⟩ : BufTy).Contents (Elt Ideal)) : val_main_v24 (F := Ideal) x0 x1 x3 = weights x0 x1 x3 := by
  funext i
  obtain ⟨b, h, q, k, rfl⟩ : ∃ (b : Fin 2) (h : Fin 16) (q k : Fin 2048), i = ix4 b h q k := ⟨i 0, i 1, i 2, i 3, eq_ix4 i⟩
  rw [weights_ix4]
  exact weightAt_apply x0 x1 x3 b h q k

/-- The reference's output array is the specification's. -/
theorem output_eq (x0 x1 x2 : (⟨S2x16x2048x64, .f32⟩ : BufTy).Contents (Elt Ideal)) (x3 : (⟨S2x2048x2048, .i32⟩ : BufTy).Contents (Elt Ideal)) :
    val_main_v25 (F := Ideal) x0 x1 x2 x3 = output x0 x1 x2 x3 := by
  funext i
  obtain ⟨b, h, q, d, rfl⟩ : ∃ (b : Fin 2) (h : Fin 16) (q : Fin 2048) (d : Fin 64), i = ix4 b h q d := ⟨i 0, i 1, i 2, i 3, eq_ix4 i⟩
  rw [output_ix4, val_main_v25_apply]
  unfold outAt weightedSum
  refine Finset.sum_congr rfl fun k _ => ?_
  have el : lidx_main_v25 (ix4 b h q d) k = ix4 b h q k := funext fun a => by
    match a with
    | ⟨0, _⟩ => rfl
    | ⟨1, _⟩ => rfl
    | ⟨2, _⟩ => rfl
    | ⟨3, _⟩ => rfl
  have er : ridx_main_v25 (ix4 b h q d) k = ix4 b h k d := funext fun a => by
    match a with
    | ⟨0, _⟩ => rfl
    | ⟨1, _⟩ => rfl
    | ⟨2, _⟩ => rfl
    | ⟨3, _⟩ => rfl
  rw [el, er, weightAt_apply]

end Cert.ReferenceIdeal.RefValue

end
-- ==== Proof.lean ====
/- Masked scaled-dot-product attention, two results: the output rows and the full array of softmax weights.
   The kernel tiles the work over batch, groups of four heads and tiles of 128 query positions; for every query row it
   forms the scores against all 2048 keys, (q · k) / 8 plus a bias that is 0 where the mask word is positive and −10⁹
   elsewhere, takes the softmax of the row, stores it, and stores its combination of the value rows. The reference does
   the same on whole arrays: the scale is spelt 1 / √64 and the bias −10⁹ · (1 − clamp of the mask to [0, 1]).
   On the extended reals both programs compute ONE pair of functions of the argument arrays (the specification module):
   1 / √64 is 1/8 because 64 = 8²; the two spellings of the bias agree at every integer mask word, positive or not; the
   changes of float format in front of the kernel's products are the identity; sums and maxima are taken over the same
   rows. No step needs the inputs to be finite, so the precondition is never opened.
   The kernel's side is read off the generated frame run block by block (the blocks of the 128 grid points tile both
   output arrays); the reference's side off its generated run, operation by operation. The ideal pass rewrote nothing,
   so the kernel's idealization is its own text read on the extended reals. -/
import proofs.«175627_j75505525063894_1_alg».proof.Defs
import proofs.«175627_j75505525063894_1_alg».proof.Proof.Gen.Kernel
import proofs.«175627_j75505525063894_1_alg».proof.Proof.Gen.Kernel.Skeleton
import proofs.«175627_j75505525063894_1_alg».proof.Proof.Gen.Kernel.Launch
import proofs.«175627_j75505525063894_1_alg».proof.Proof.Gen.Kernel.Points
import proofs.«175627_j75505525063894_1_alg».proof.Proof.Gen.Kernel.Frame
import proofs.«175627_j75505525063894_1_alg».proof.Proof.Gen.KernelIdeal
import proofs.«175627_j75505525063894_1_alg».proof.Proof.Gen.KernelIdeal.Skeleton
import proofs.«175627_j75505525063894_1_alg».proof.Proof.Gen.KernelIdeal.Launch
import proofs.«175627_j75505525063894_1_alg».proof.Proof.Gen.KernelIdeal.Points
import proofs.«175627_j75505525063894_1_alg».proof.Proof.Gen.KernelIdeal.Frame
import proofs.«175627_j75505525063894_1_alg».proof.Proof.Gen.ReferenceIdeal
import proofs.«175627_j75505525063894_1_alg».proof.Proof.Gen.Pre_finite_inputs
import proofs.«175627_j75505525063894_1_alg».proof.Proof.Gen.KernelIdeal.Value
import proofs.«175627_j75505525063894_1_alg».proof.Proof.Gen.ReferenceIdeal.Run
import proofs.«175627_j75505525063894_1_alg».proof.Proof.Gen.ReferenceIdeal.Read
import proofs.«175627_j75505525063894_1_alg».proof.Proof.Blocks
import proofs.«175627_j75505525063894_1_alg».proof.Proof.RefReads
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the four arguments both programs end with the specification's output and weights arrays
    of those arguments. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v25_eq, (hagree c).1, (hagree c).2.1, (hagree c).2.2.1, (hagree c).2.2.2]
    exact Cert.ReferenceIdeal.RefValue.output_eq _ _ _ _
  · rw [Cert.ReferenceIdeal.Read.val_main_v24_eq, (hagree c).1, (hagree c).2.1, (hagree c).2.2.2]
    exact Cert.ReferenceIdeal.RefValue.weights_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
